-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S11008x4096 : Shape := ⟨2, ![11008, 4096]⟩
abbrev S32x11008x2 : Shape := ⟨3, ![32, 11008, 2]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S32x11008x2 : S_.BroadcastsInDim S32x11008x2 (![] : Fin 0 → Fin S32x11008x2.rank)
  reducesTo_S32x11008x2_S_d0_1_2 : S32x11008x2.ReducesTo [0, 1, 2] S_

variable [Facts]

def fn {F : FTy → Type} [FloatOps F] (main_arg0 : FVec F S4096x4096 .f32) (main_arg1 : IVec S11008x4096 32) (main_arg2 : FVec F S32x11008x2 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S32x11008x2 .f32 := Host.absf main_arg2
  let main_cst_0 : FVec F S_ .f32 := constant S_ .f32 0x7F800000#32
  let main_v5 : FVec F S32x11008x2 .f32 := broadcastInDim S32x11008x2 ![] bcast_S_S32x11008x2 main_cst_0
  let main_v6 : IVec S32x11008x2 1 := cmpf .olt main_v4 main_v5
  let main_c_1 : IVec S_ 1 := constantI S_ 1 1#1
  let main_v7 : IVec S_ 1 := (fun x v => Host.reduce IntOp.andi x v reducesTo_S32x11008x2_S_d0_1_2 h_S_) main_v6 main_c_1
  let main_v8 : IVec S_ 1 := andi main_v3 main_v7
  main_v8
-- ==== Kernel.lean ====
abbrev S4096x4096 : Shape := ⟨2, ![4096, 4096]⟩
abbrev S11008x4096 : Shape := ⟨2, ![11008, 4096]⟩
abbrev S32x11008x2 : Shape := ⟨3, ![32, 11008, 2]⟩
abbrev S4096x11008 : Shape := ⟨2, ![4096, 11008]⟩
abbrev S512x4096 : Shape := ⟨2, ![512, 4096]⟩
abbrev S256x4096 : Shape := ⟨2, ![256, 4096]⟩
abbrev S32x256x2 : Shape := ⟨3, ![32, 256, 2]⟩
abbrev S512x256 : Shape := ⟨2, ![512, 256]⟩
abbrev S256x32x128 : Shape := ⟨3, ![256, 32, 128]⟩
abbrev S32x256x1 : Shape := ⟨3, ![32, 256, 1]⟩
abbrev S32x256 : Shape := ⟨2, ![32, 256]⟩
abbrev S256x32 : Shape := ⟨2, ![256, 32]⟩
abbrev S256x32x1 : Shape := ⟨3, ![256, 32, 1]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S11008x4096, .i32⟩
  | .hbm, ⟨2, _⟩ => ⟨S32x11008x2, .f32⟩
  | .hbm, ⟨3, _⟩ => ⟨S4096x11008, .f32⟩
  | .local _ .vmem, ⟨0, _⟩ => ⟨S512x4096, .f32⟩
  | .local _ .vmem, ⟨1, _⟩ => ⟨S512x4096, .f32⟩
  | .local _ .vmem, ⟨2, _⟩ => ⟨S256x4096, .i32⟩
  | .local _ .vmem, ⟨3, _⟩ => ⟨S256x4096, .i32⟩
  | .local _ .vmem, ⟨4, _⟩ => ⟨S32x256x2, .f32⟩
  | .local _ .vmem, ⟨5, _⟩ => ⟨S32x256x2, .f32⟩
  | .local _ .vmem, ⟨6, _⟩ => ⟨S512x256, .f32⟩
  | .local _ .vmem, ⟨7, _⟩ => ⟨S512x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x256x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x32x128 : S256x4096.ShapeCasts S256x32x128
  inb_S32x256x2_S32x256x2_0_0_0 : ∀ a, (![0, 0, 0] : Fin 3 → Nat) a + S32x256x2.size a ≤ S32x256x2.size a
  h_S32x256x2 : 0 < S32x256x2.numel
  slices_S32x256x2_o0_0_0_S32x256x1 : S32x256x2.Slices ![0, 0, 0] S32x256x1
  shapeCasts_S32x256x1_S32x256 : S32x256x1.ShapeCasts S32x256
  slices_S32x256x2_o0_0_1_S32x256x1 : S32x256x2.Slices ![0, 0, 1] S32x256x1
  transposes_S32x256_p1_0_S256x32 : S32x256.Transposes [1, 0] S256x32
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  inb_S512x256_S512x256_0_0 : ∀ a, (![0, 0] : Fin 2 → Nat) a + S512x256.size a ≤ S512x256.size a
  h_S512x256 : 0 < S512x256.numel
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256x2.size a ≤ S32x11008x2.size a
  hwx0_2 : ∀ i : grid0.Coords, EltTy.bits .f32 = 32 ∨ (Rect.block (s := S32x11008x2) S32x256x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S4096x11008.size a
  hwx0_3 : ∀ i : grid0.Coords, EltTy.bits .f32 = 32 ∨ (Rect.block (s := S4096x11008) S512x256.size (cc0_transform_3 i) (hinb0_3 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x256x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S11008x4096 : Shape := ⟨2, ![11008, 4096]⟩
abbrev S32x11008x2 : Shape := ⟨3, ![32, 11008, 2]⟩
abbrev S32x11008x1 : Shape := ⟨3, ![32, 11008, 1]⟩
abbrev S32x11008 : Shape := ⟨2, ![32, 11008]⟩
abbrev S4096x11008 : Shape := ⟨2, ![4096, 11008]⟩
abbrev S32x128x11008 : Shape := ⟨3, ![32, 128, 11008]⟩
abbrev S_ : Shape := ⟨0, ![]⟩
abbrev S32x1x11008 : Shape := ⟨3, ![32, 1, 11008]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S11008x4096, .i32⟩
  | .hbm, ⟨2, _⟩ => ⟨S32x11008x2, .f32⟩
  | .hbm, ⟨3, _⟩ => ⟨S32x11008x1, .f32⟩
  | .hbm, ⟨4, _⟩ => ⟨S32x11008, .f32⟩
  | .hbm, ⟨5, _⟩ => ⟨S32x11008x1, .f32⟩
  | .hbm, ⟨6, _⟩ => ⟨S32x11008, .f32⟩
  | .hbm, ⟨7, _⟩ => ⟨S11008x4096, .f32⟩
  | .hbm, ⟨8, _⟩ => ⟨S4096x11008, .f32⟩
  | .hbm, ⟨9, _⟩ => ⟨S32x128x11008, .f32⟩
  | .hbm, ⟨10, _⟩ => ⟨S_, .f32⟩
  | .hbm, ⟨11, _⟩ => ⟨S32x128x11008, .f32⟩
  | .hbm, ⟨12, _⟩ => ⟨S32x128x11008, .f32⟩
  | .hbm, ⟨13, _⟩ => ⟨S32x1x11008, .f32⟩
  | .hbm, ⟨14, _⟩ => ⟨S32x128x11008, .f32⟩
  | .hbm, ⟨15, _⟩ => ⟨S32x128x11008, .f32⟩
  | .hbm, ⟨16, _⟩ => ⟨S32x1x11008, .f32⟩
  | .hbm, ⟨17, _⟩ => ⟨S32x128x11008, .f32⟩
  | .hbm, ⟨18, _⟩ => ⟨S32x128x11008, .f32⟩
  | .hbm, ⟨19, _⟩ => ⟨S4096x11008, .f32⟩
  | .hbm, ⟨20, _⟩ => ⟨S4096x11008, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]

class Facts₀ : Prop where
  slices_S32x11008x2_S32x11008x1_0_0_0 : S32x11008x2.Slices ![0, 0, 0] S32x11008x1
  shapeCasts_S32x11008x1_S32x11008 : S32x11008x1.ShapeCasts S32x11008
  slices_S32x11008x2_S32x11008x1_0_0_1 : S32x11008x2.Slices ![0, 0, 1] S32x11008x1
  transposes_S11008x4096_S4096x11008_1_0 : S11008x4096.Transposes [1, 0] S4096x11008
  shapeCasts_S4096x11008_S32x128x11008 : S4096x11008.ShapeCasts S32x128x11008
  bcast_S_S32x128x11008 : S_.BroadcastsInDim S32x128x11008 (![] : Fin 0 → Fin S32x128x11008.rank)
  bcast_S32x11008_S32x1x11008_0_2 : S32x11008.BroadcastsInDim S32x1x11008 (![0, 2] : Fin 2 → Fin S32x1x11008.rank)
  bcast_S32x1x11008_S32x128x11008_0_1_2 : S32x1x11008.BroadcastsInDim S32x128x11008 (![0, 1, 2] : Fin 3 → Fin S32x128x11008.rank)
  shapeCasts_S32x128x11008_S4096x11008 : S32x128x11008.ShapeCasts S4096x11008
  dot_S4096x4096_S4096x11008_S4096x11008_1_0_0_1_n_n_wf : DotDims.WF S4096x4096 S4096x11008 S4096x11008 [1] [0] [0] [1] [] []

variable [Facts₀]

def dot_S4096x4096_S4096x11008_S4096x11008_1_0_0_1_n_n : DotDims S4096x4096 S4096x11008 S4096x11008 where
  lhsContracting := [1]
  rhsContracting := [0]
  lhsNonContracting := [0]
  rhsNonContracting := [1]
  lhsBatch := []
  rhsBatch := []
  wf := dot_S4096x4096_S4096x11008_S4096x11008_1_0_0_1_n_n_wf

class Facts : Prop extends Facts₀ where

variable [Facts]
-- ==== Proof.Dequant.lean ====
/-
  The mathematics both programs compute: a [M, 4096] activation matrix times an int4-style quantized weight matrix,
  dequantized group-wise on the fly.  The contraction axis (4096 positions) is cut into 32 groups of 128 consecutive
  positions; every output column `n` has one scale and one zero point per group, stored at `sz[g, n, 0]` and
  `sz[g, n, 1]`.  The weight of column `n` at position `k` is

      w(n, k) = (code(n, k) − 8) · scale(k / 128, n) + zero(k / 128, n)

  and the result is `out(i, n) = Σ_k x(i, k) · w(n, k)` over the extended reals.  Both programs compute exactly this
  sum, with the same factors in the same order inside each term, so no algebraic law beyond re-indexing is needed and
  finiteness of the inputs is never used.
-/
import Idealize.ShloMosaic.PureOps.Ideal
import Idealize.ShloMosaic.Lib.ValueIdx

noncomputable section

open scoped BigOperators

namespace Cert.Dequant

open Idealize.ShloMosaic Idealize.ShloMosaic.ValueIdx

/-- The group of contraction position `k`: positions `128·g … 128·g + 127` share group `g`'s scale and zero point. -/
def grp (k : Fin 4096) : Fin 32 := ⟨k.val / 128, by have := k.isLt; omega⟩

/-- The dequantized weight of output column `n` at contraction position `k`: the integer code read as a signed
    number, shifted by 8, scaled by the group's scale and offset by the group's zero point. -/
def weight {N : Nat} (q : (⟨2, ![N, 4096]⟩ : Shape).Idx → BitVec 32) (sz : (⟨3, ![32, N, 2]⟩ : Shape).Idx → EReal)
    (n : Fin N) (k : Fin 4096) : EReal :=
  (FloatOps.sitofp (F := Ideal) .f32 (q (ix2 n k)) - Ideal.ofBits .f32 0x41000000#32) * sz (ix3 (grp k) n (0 : Fin 2))
    + sz (ix3 (grp k) n (1 : Fin 2))

/-- Entry `(i, n)` of the product: row `i` of the activations against the dequantized column `n`. -/
def entry {M N : Nat} (x : (⟨2, ![M, 4096]⟩ : Shape).Idx → EReal) (q : (⟨2, ![N, 4096]⟩ : Shape).Idx → BitVec 32)
    (sz : (⟨3, ![32, N, 2]⟩ : Shape).Idx → EReal) (i : Fin M) (n : Fin N) : EReal :=
  ∑ k : Fin 4096, x (ix2 i k) * weight q sz n k

/-- The whole product, as one function of the three arrays, index by index. -/
def product {M N : Nat} (x : (⟨2, ![M, 4096]⟩ : Shape).Idx → EReal) (q : (⟨2, ![N, 4096]⟩ : Shape).Idx → BitVec 32)
    (sz : (⟨3, ![32, N, 2]⟩ : Shape).Idx → EReal) : (⟨2, ![M, N]⟩ : Shape).Idx → EReal :=
  fun j => entry x q sz (j 0) (j 1)

/-- An entry depends only on one row of the activations, one row of the codes and one column of the scale/zero table:
    if a tile of rows and a tile of columns are cut out of the three arrays (row `p` of the tile being row `i` of the
    array, column `c` of the tile being column `n`), the tile's entry `(p, c)` is the array's entry `(i, n)`. -/
theorem entry_of_tile {M N M' N' : Nat}
    (X : (⟨2, ![M, 4096]⟩ : Shape).Idx → EReal) (Q : (⟨2, ![N, 4096]⟩ : Shape).Idx → BitVec 32)
    (SZ : (⟨3, ![32, N, 2]⟩ : Shape).Idx → EReal)
    (x : (⟨2, ![M', 4096]⟩ : Shape).Idx → EReal) (q : (⟨2, ![N', 4096]⟩ : Shape).Idx → BitVec 32)
    (sz : (⟨3, ![32, N', 2]⟩ : Shape).Idx → EReal)
    (p : Fin M') (c : Fin N') (i : Fin M) (n : Fin N)
    (hx : ∀ k : Fin 4096, x (ix2 p k) = X (ix2 i k))
    (hq : ∀ k : Fin 4096, q (ix2 c k) = Q (ix2 n k))
    (hsz : ∀ (g : Fin 32) (e : Fin 2), sz (ix3 g c e) = SZ (ix3 g n e)) :
    entry x q sz p c = entry X Q SZ i n := by
  unfold entry weight
  refine Finset.sum_congr rfl fun k _ => ?_
  rw [hx k, hq k, hsz (grp k) 0, hsz (grp k) 1]

end Cert.Dequant

end
-- ==== Proof.RefProduct.lean ====
/-
  The reference computes the product of `Dequant.lean`.  Its weight matrix `w[k, n]` is built on the host by
  transposing the codes, cutting the contraction axis into [32, 128], subtracting 8, multiplying by the group's scale
  and adding the group's zero point (both broadcast along the 128 positions of a group), and flattening back to
  [4096, 11008]; entry `(k, n)` of that matrix is `weight n k`: the flat position `k·11008 + n` of the [32, 128, 11008]
  array has group coordinate `k / 128`, position-in-group `k % 128` and column `n`, and the transposed-and-reshaped
  codes at that index are `code(n, k)`.  The final `dot_general` contracts axis 1 of `x` with axis 0 of `w`, which at
  the exact instance is the sum over `k` of `x(i, k) · w(k, n)`.
-/
import proofs.«119163_j2130303779339_1_alg».proof.Proof.Gen.ReferenceIdeal.Read
import proofs.«119163_j2130303779339_1_alg».proof.Proof.Dequant

noncomputable section

open scoped BigOperators

namespace Cert.ReferenceIdeal.RefValue

open Cert.ReferenceIdeal Cert.ReferenceIdeal.Read Cert.Dequant
open Idealize.ShloMosaic Idealize.ShloMosaic.ValueIdx

/-- Where entry `(k, n)` of the weight matrix reads the codes: the flattened [32, 128, 11008] index goes back through
    the reshape to `(k, n)` of the transposed codes, that is `(n, k)` of the codes. -/
theorem code_index (k : Fin 4096) (n : Fin 11008) :
    idx_main_v5 (idx_main_v6 (idx_main_v15 (ix2 k n))) = ix2 n k := by
  have hk := k.isLt
  have hn := n.isLt
  funext a
  apply Fin.ext
  match a with
  | ⟨0, _⟩ =>
    show (((k.val * 11008 + n.val) / 1409024 * 128 + (k.val * 11008 + n.val) / 11008 % 128) * 11008 + (k.val * 11008 + n.val) % 11008) % 11008 = n.val
    omega
  | ⟨1, _⟩ =>
    show (((k.val * 11008 + n.val) / 1409024 * 128 + (k.val * 11008 + n.val) / 11008 % 128) * 11008 + (k.val * 11008 + n.val) % 11008) / 11008 = k.val
    omega

/-- Where entry `(k, n)` of the weight matrix reads its scale: slot 0 of column `n` in the group of `k`. -/
theorem scale_index (k : Fin 4096) (n : Fin 11008) :
    idx_main_v0 (idx_main_v1 (idx_main_v9 (idx_main_v10 (idx_main_v15 (ix2 k n))))) = ix3 (grp k) n (0 : Fin 2) := by
  have hk := k.isLt
  have hn := n.isLt
  funext a
  apply Fin.ext
  match a with
  | ⟨0, _⟩ =>
    show ((k.val * 11008 + n.val) / 1409024 * 11008 + (k.val * 11008 + n.val) % 11008) / 11008 = k.val / 128
    omega
  | ⟨1, _⟩ =>
    show ((k.val * 11008 + n.val) / 1409024 * 11008 + (k.val * 11008 + n.val) % 11008) / 1 % 11008 = n.val
    omega
  | ⟨2, _⟩ => rfl

/-- Where entry `(k, n)` of the weight matrix reads its zero point: slot 1 of column `n` in the group of `k`. -/
theorem zero_index (k : Fin 4096) (n : Fin 11008) :
    idx_main_v2 (idx_main_v3 (idx_main_v12 (idx_main_v13 (idx_main_v15 (ix2 k n))))) = ix3 (grp k) n (1 : Fin 2) := by
  have hk := k.isLt
  have hn := n.isLt
  funext a
  apply Fin.ext
  match a with
  | ⟨0, _⟩ =>
    show ((k.val * 11008 + n.val) / 1409024 * 11008 + (k.val * 11008 + n.val) % 11008) / 11008 = k.val / 128
    omega
  | ⟨1, _⟩ =>
    show ((k.val * 11008 + n.val) / 1409024 * 11008 + (k.val * 11008 + n.val) % 11008) / 1 % 11008 = n.val
    omega
  | ⟨2, _⟩ => rfl

/-- Entry `(k, n)` of the reference's weight matrix is the dequantized weight of column `n` at position `k`. -/
theorem weight_matrix (x1 : (⟨S11008x4096, .i32⟩ : BufTy).Contents (Elt Ideal)) (x2 : (⟨S32x11008x2, .f32⟩ : BufTy).Contents (Elt Ideal))
    (k : Fin 4096) (n : Fin 11008) :
    val_main_v15 (F := Ideal) x1 x2 (ix2 k n) = weight x1 x2 n k := by
  rw [val_main_v15_apply, val_main_v14_apply, val_main_v11_apply, val_main_v8_apply, val_main_v6_apply, val_main_v5_apply,
    val_main_v4_apply, val_main_v7_apply, val_main_cst_apply, val_main_v10_apply, val_main_v9_apply, val_main_v1_apply,
    val_main_v0_apply, val_main_v13_apply, val_main_v12_apply, val_main_v3_apply, val_main_v2_apply,
    code_index, scale_index, zero_index]
  rfl

/-- The reference's result is the product, index by index. -/
theorem result_eq (x0 : (⟨S4096x4096, .f32⟩ : BufTy).Contents (Elt Ideal)) (x1 : (⟨S11008x4096, .i32⟩ : BufTy).Contents (Elt Ideal))
    (x2 : (⟨S32x11008x2, .f32⟩ : BufTy).Contents (Elt Ideal)) :
    val_main_v16 (F := Ideal) x0 x1 x2 = product x0 x1 x2 := by
  funext j
  obtain ⟨i, n, rfl⟩ : ∃ (i : Fin 4096) (n : Fin 11008), j = ix2 i n := ⟨j 0, j 1, eq_ix2 j⟩
  rw [val_main_v16_apply]
  show _ = ∑ k : Fin 4096, x0 (ix2 i k) * weight x1 x2 n k
  refine Finset.sum_congr rfl fun k _ => ?_
  have el : lidx_main_v16 (ix2 i n) k = ix2 i k := funext fun a => Fin.ext (by
    match a with
    | ⟨0, _⟩ => rfl
    | ⟨1, _⟩ => rfl)
  have er : ridx_main_v16 (ix2 i n) k = ix2 k n := funext fun a => Fin.ext (by
    match a with
    | ⟨0, _⟩ => rfl
    | ⟨1, _⟩ => rfl)
  rw [el, er, weight_matrix]

end Cert.ReferenceIdeal.RefValue

end
-- ==== Proof.TilePayload.lean ====
/-
  One tile of the product.  At a grid point the kernel holds a tile of 512 rows of the activations, a tile of 256 rows
  of the codes and the 256 matching columns of the scale/zero table.  It builds the dequantized weights of the 256
  columns, laid out as a [256, 4096] matrix, and contracts the activation tile against it along the 4096 positions.

  The weight matrix is built through layout steps only: the [256, 4096] codes are cut into [256, 32, 128] (position
  `k` of a row is position `k % 128` of group `k / 128`), the scales and the zero points are taken out of slots 0 and 1
  of the table, transposed from [32, 256] to [256, 32] and repeated along the 128 positions of each group, and the
  result is flattened back to [256, 4096].  Read at column `c` and position `k` it is `weight c k`, so entry `(p, c)` of
  the contraction is `entry p c` of the three tiles.  Rounding the two operands to bf16 changes nothing over the
  extended reals.
-/
import proofs.«119163_j2130303779339_1_alg».proof.Proof.Gen.KernelIdeal.Skeleton
import proofs.«119163_j2130303779339_1_alg».proof.Proof.Dequant
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Cert.Dequant
open Idealize.ShloMosaic Idealize.ShloMosaic.ValueIdx

/-- The place of contraction position `k` inside its group of 128. -/
def pos (k : Fin 4096) : Fin 128 := ⟨k.val % 128, Nat.mod_lt _ (by decide)⟩

/-- Slot `e` of the scale/zero table (0: scales, 1: zero points), taken out as a [32, 256] matrix, transposed to
    [256, 32] and repeated along the 128 positions of a group: at column `c`, group `g` and any position it is the
    table's entry `(g, c, e)`. -/
theorem column_param (x2 : FVec Ideal S32x256x2 .f32) (o : Nat) (e : Fin 2) (ho : o = e.val)
    (hs : S32x256x2.Slices ![0, 0, o] S32x256x1) (hc1 : S32x256x1.ShapeCasts S32x256)
    (ht : S32x256.Transposes [1, 0] S256x32) (hc2 : S256x32.ShapeCasts S256x32x1)
    (hb : S256x32x1.Broadcasts S256x32x128) (c : Fin 256) (g : Fin 32) (r : Fin 128) :
    broadcastTo S256x32x128
        (shapeCast S256x32x1 (transpose S256x32 [1, 0] (shapeCast S32x256 (extractStridedSlice S32x256x1 ![0, 0, o] x2 hs) hc1) ht) hc2)
        hb (ix3 c g r)
      = x2 (ix3 g c e) := by
  have hc := c.isLt
  have hg := g.isLt
  -- repeating along the last axis: position `r` reads position 0
  refine (broadcastTo_apply _ hb (ix3 c g r) (ix3 c g (0 : Fin 1)) (fun a => match a with
    | ⟨0, _⟩ => rfl
    | ⟨1, _⟩ => rfl
    | ⟨2, _⟩ => rfl)).trans ?_
  -- [256, 32, 1] at (c, g, 0) is [256, 32] at (c, g)
  refine (shapeCast_apply _ hc2 (ix3 c g (0 : Fin 1)) (ix2 c g) (by
    rw [Shape.rowMajor_val_two, Shape.rowMajor_val_three]
    show c.val * 32 + g.val = (c.val * 32 + g.val) * 1 + 0
    omega)).trans ?_
  -- the transpose: (c, g) reads (g, c)
  refine (transpose_ix2_apply _ ht c g).trans ?_
  -- [32, 256] at (g, c) is [32, 256, 1] at (g, c, 0)
  refine (shapeCast_apply _ hc1 (ix2 g c) (ix3 g c (0 : Fin 1)) (by
    rw [Shape.rowMajor_val_three, Shape.rowMajor_val_two]
    show (g.val * 256 + c.val) * 1 + 0 = g.val * 256 + c.val
    omega)).trans ?_
  -- the slice at offset `o` on the last axis: slot 0 of the slice is slot `o` of the table
  exact extractStridedSlice_apply ![0, 0, o] x2 hs (ix3 g c (0 : Fin 1)) (ix3 g c e) (fun a => match a with
    | ⟨0, _⟩ => by show g.val = 0 + g.val; omega
    | ⟨1, _⟩ => by show c.val = 0 + c.val; omega
    | ⟨2, _⟩ => by show e.val = o + 0; omega)

/-- The left operand's row is the output's row. -/
theorem lhs_row (i : S512x256.Idx) (q : dot_S512x4096_S256x4096_S512x256_1_1_0_0_n_n.contr.Idx) :
    (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide),
    dif_pos (show (0 : Fin S512x4096.rank) ∈ dot_S512x4096_S256x4096_S512x256_1_1_0_0_n_n.lhsNonContracting by decide)]
  rfl

/-- The right operand's row is the output's column. -/
theorem rhs_row (i : S512x256.Idx) (q : dot_S512x4096_S256x4096_S512x256_1_1_0_0_n_n.contr.Idx) :
    (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide),
    dif_pos (show (0 : Fin S256x4096.rank) ∈ dot_S512x4096_S256x4096_S512x256_1_1_0_0_n_n.rhsNonContracting by decide)]
  rfl

/-- Row `p` of the left operand at contraction position `k`. -/
theorem lhs_index (p : Fin 512) (c : Fin 256) (k : Fin 4096) :
    dot_S512x4096_S256x4096_S512x256_1_1_0_0_n_n.lhsIdx (ix2 p c)
        ((contrEquiv1 dot_S512x4096_S256x4096_S512x256_1_1_0_0_n_n 4096 rfl rfl).symm k) = ix2 p k := by
  have hk := contrEquiv1_symm_val dot_S512x4096_S256x4096_S512x256_1_1_0_0_n_n 4096 rfl rfl k
  exact funext fun a => Fin.ext (by
    match a with
    | ⟨0, _⟩ => exact lhs_row _ _
    | ⟨1, _⟩ => exact (dot_S512x4096_S256x4096_S512x256_1_1_0_0_n_n.lhsIdx_val_of_single rfl _ _).trans hk)

/-- Row `c` of the right operand (the weights of column `c`) at contraction position `k`. -/
theorem rhs_index (p : Fin 512) (c : Fin 256) (k : Fin 4096) :
    dot_S512x4096_S256x4096_S512x256_1_1_0_0_n_n.rhsIdx (ix2 p c)
        ((contrEquiv1 dot_S512x4096_S256x4096_S512x256_1_1_0_0_n_n 4096 rfl rfl).symm k) = ix2 c k := by
  have hk := contrEquiv1_symm_val dot_S512x4096_S256x4096_S512x256_1_1_0_0_n_n 4096 rfl rfl k
  exact funext fun a => Fin.ext (by
    match a with
    | ⟨0, _⟩ => exact rhs_row _ _
    | ⟨1, _⟩ => exact (dot_S512x4096_S256x4096_S512x256_1_1_0_0_n_n.rhsIdx_val_of_single rfl _ _).trans hk)

/-- Entry `(p, c)` of what the body stores is entry `(p, c)` of the product of the three tiles it loaded. -/
theorem tile_entry (x0 : Vec Ideal S512x4096 .f32) (x1 : Vec Ideal S256x4096 .i32) (x2 : Vec Ideal S32x256x2 .f32)
    (p : Fin 512) (c : Fin 256) :
    k0_pay1 (F := Ideal) x0 x1 x2 (ix2 p c) = entry x0 x1 x2 p c := by
  unfold k0_pay1
  dsimp only
  refine (Ideal.matmul_constant_zero_apply dot_S512x4096_S256x4096_S512x256_1_1_0_0_n_n none _ _ (ix2 p c)).trans ?_
  rw [← Equiv.sum_comp (contrEquiv1 dot_S512x4096_S256x4096_S512x256_1_1_0_0_n_n 4096 rfl rfl).symm]
  unfold entry
  refine Finset.sum_congr rfl fun k _ => ?_
  rw [lhs_index, rhs_index]
  have hk := k.isLt
  have hc := c.isLt
  refine congrArg (x0 (ix2 p k) * ·) ?_
  refine (truncf_apply (φ := .f32) (ψ := .bf16) _ bitsLt_bf16_f32 (ix2 c k)).trans ?_
  -- the flattened weights at (c, k) are the grouped weights at (c, k / 128, k % 128)
  refine (shapeCast_apply _ _ (ix2 c k) (ix3 c (grp k) (pos k)) (by
    rw [Shape.rowMajor_val_three, Shape.rowMajor_val_two]
    show (c.val * 32 + k.val / 128) * 128 + k.val % 128 = c.val * 4096 + k.val
    omega)).trans ?_
  unfold weight
  refine (addf_apply _ _ _).trans (congrArg₂ (· + ·) ((mulf_apply _ _ _).trans (congrArg₂ (· * ·) ((subf_apply _ _ _).trans (congrArg₂ (· - ·) ?_ rfl)) ?_)) ?_)
  · -- the grouped codes at (c, k / 128, k % 128) are the codes at (c, k)
    exact shapeCast_apply _ _ (ix3 c (grp k) (pos k)) (ix2 c k) (by
      rw [Shape.rowMajor_val_three, Shape.rowMajor_val_two]
      show c.val * 4096 + k.val = (c.val * 32 + k.val / 128) * 128 + k.val % 128
      omega)
  · exact column_param x2 0 0 rfl _ _ _ _ _ c (grp k) (pos k)
  · exact column_param x2 1 1 rfl _ _ _ _ _ c (grp k) (pos k)

end Cert.KernelIdeal.Tile

end
-- ==== Proof.Blocks.lean ====
/-
  From tiles to the whole product.  The grid has 8 × 43 points; point `t` works on row block `t / 43` (512 rows of the
  activations and of the result) and column block `t % 43` (256 rows of the codes, 256 columns of the scale/zero table
  and of the result).  Entry `(p, c)` of the tile the point writes back is therefore entry
  `(512·(t / 43) + p, 256·(t % 43) + c)` of the product of the whole arrays: an entry only depends on one row of the
  activations, one row of the codes and one column of the table, and the three blocks hold exactly those.  The
  8 × 43 output blocks tile the [4096, 11008] result — index `(r, n)` lies in the block of point
  `(r / 512)·43 + n / 256` — so after the last point the result array is the product everywhere.
-/
import proofs.«119163_j2130303779339_1_alg».proof.Proof.Gen.KernelIdeal.Value
import proofs.«119163_j2130303779339_1_alg».proof.Proof.TilePayload

set_option maxRecDepth 16384

noncomputable section

open scoped BigOperators

namespace Cert.KernelIdeal.Blocks

open Cert.KernelIdeal Cert.KernelIdeal.Gen Cert.Dequant Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The tile computed from three loaded tiles is a block of the product of three arrays, as soon as the loaded tiles
    are the matching rows and columns of the arrays: row `j 0` of the activation tile is row `i 0` of the activations,
    row `j 1` of the code tile is row `i 1` of the codes, column `j 1` of the table tile is column `i 1` of the table. -/
theorem tile_is_block (X : S4096x4096.Idx → EReal) (Q : S11008x4096.Idx → BitVec 32) (SZ : S32x11008x2.Idx → EReal)
    (x0 : Vec Ideal S512x4096 .f32) (x1 : Vec Ideal S256x4096 .i32) (x2 : Vec Ideal S32x256x2 .f32)
    (j : S512x256.Idx) (i : S4096x11008.Idx)
    (hx : ∀ k : Fin 4096, x0 (ix2 (j 0) k) = X (ix2 (i 0) k))
    (hq : ∀ k : Fin 4096, x1 (ix2 (j 1) k) = Q (ix2 (i 1) k))
    (hsz : ∀ (g : Fin 32) (e : Fin 2), x2 (ix3 g (j 1) e) = SZ (ix3 g (i 1) e)) :
    k0_pay1 (F := Ideal) x0 x1 x2 j = product X Q SZ i := by
  obtain ⟨p, q, rfl⟩ : ∃ (p : Fin 512) (q : Fin 256), j = ix2 p q := ⟨j 0, j 1, eq_ix2 j⟩
  exact (Tile.tile_entry x0 x1 x2 p q).trans (entry_of_tile X Q SZ x0 x1 x2 p q (i 0) (i 1) hx hq hsz)

/-- The printed index maps over the 344 grid points: the activations' and the result's row block is `t / 43`, the
    codes', the table's and the result's column block is `t % 43`, every other block index is 0. -/
theorem idx_facts : ∀ t : Fin cfg0.N,
    win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 3) = 0 ∧ win0_2.index t (1 : Fin 3) = t.val % 43 ∧ win0_2.index t (2 : Fin 3) = 0
    ∧ win0_3.index t (0 : Fin 2) = t.val / 43 ∧ win0_3.index t (1 : Fin 2) = t.val % 43 :=
  (by decide +kernel : ∀ t : Fin grid0.N, _)

/-- What point `t` writes back is block `t` of the product of the argument arrays as the region finds them. -/
theorem flushed_eq (c : Dev nD) (t : Fin cfg0.N) :
    (dats m 0 c).flushed 3 t
      = ((cfg0.win 3).blk t).view.read (Elt Ideal) (product (V m c main_arg0) (V m c main_arg1) (V m c main_arg2)) := by
  rw [Value.flushed3]
  unfold out0_3
  rw [View.canon_unit_zero zeros2]
  simp only [View.ld_unit_zero (S := S512x4096) zeros2, View.ld_unit_zero (S := S256x4096) zeros2,
    View.ld_unit_zero (S := S32x256x2) zeros3]
  obtain ⟨a00, a01, a10, a11, a20, a21, a22, a30, a31⟩ := idx_facts t
  funext j
  show k0_pay1 (F := Ideal) (iblk m c 0 t) (iblk m c 1 t) (iblk m c 2 t) j
      = product (V m c main_arg0) (V m c main_arg1) (V m c main_arg2) (((cfg0.win 3).blk t).view.emb j)
  have hj0 : (j 0).val < 512 := (j 0).isLt
  have hj1 : (j 1).val < 256 := (j 1).isLt
  refine tile_is_block (V m c main_arg0) (V m c main_arg1) (V m c main_arg2) (iblk m c 0 t) (iblk m c 1 t) (iblk m c 2 t)
    j (((cfg0.win 3).blk t).view.emb j) ?_ ?_ ?_
  · intro k
    show V m c main_arg0 (((cfg0.win 0).blk t).view.emb (ix2 (j 0) k)) = V m c main_arg0 (ix2 ((((cfg0.win 3).blk t).view.emb j) 0) k)
    refine congrArg (V m c main_arg0) (funext fun a => Fin.ext ?_)
    match a with
    | ⟨0, _⟩ =>
      show win0_0.index t (0 : Fin 2) * 512 + 1 * (j 0).val = win0_3.index t (0 : Fin 2) * 512 + 1 * (j 0).val
      omega
    | ⟨1, _⟩ =>
      show win0_0.index t (1 : Fin 2) * 4096 + 1 * k.val = k.val
      omega
  · intro k
    show V m c main_arg1 (((cfg0.win 1).blk t).view.emb (ix2 (j 1) k)) = V m c main_arg1 (ix2 ((((cfg0.win 3).blk t).view.emb j) 1) k)
    refine congrArg (V m c main_arg1) (funext fun a => Fin.ext ?_)
    match a with
    | ⟨0, _⟩ =>
      show win0_1.index t (0 : Fin 2) * 256 + 1 * (j 1).val = win0_3.index t (1 : Fin 2) * 256 + 1 * (j 1).val
      omega
    | ⟨1, _⟩ =>
      show win0_1.index t (1 : Fin 2) * 4096 + 1 * k.val = k.val
      omega
  · intro g e
    show V m c main_arg2 (((cfg0.win 2).blk t).view.emb (ix3 g (j 1) e)) = V m c main_arg2 (ix3 g ((((cfg0.win 3).blk t).view.emb j) 1) e)
    refine congrArg (V m c main_arg2) (funext fun a => Fin.ext ?_)
    match a with
    | ⟨0, _⟩ =>
      show win0_2.index t (0 : Fin 3) * 32 + 1 * g.val = g.val
      omega
    | ⟨1, _⟩ =>
      show win0_2.index t (1 : Fin 3) * 256 + 1 * (j 1).val = win0_3.index t (1 : Fin 2) * 256 + 1 * (j 1).val
      omega
    | ⟨2, _⟩ =>
      show win0_2.index t (2 : Fin 3) * 2 + 1 * e.val = e.val
      omega

/-- An index of the result lies in point `t`'s block iff each coordinate is in the block's range on its axis. -/
theorem mem_blk (t : Fin cfg0.N) (i : S4096x11008.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v0).slice (win0_3.rect t)).set ↔ _
  rw [View.set_slice_whole, Rect.mem_set_unit]
  exact Iff.rfl

/-- Every index `(r, n)` of the result lies in the block of the point `(r / 512)·43 + n / 256`. -/
theorem cover (i : S4096x11008.Idx) :
    ∃ t : Fin cfg0.N, (cfg0.win 3).flush t = true ∧ i ∈ ((cfg0.win 3).blk t).view.set := by
  have hi0 : (i 0).val < 4096 := (i 0).isLt
  have hi1 : (i 1).val < 11008 := (i 1).isLt
  have hN : cfg0.N = 344 := N_0
  have hlt : (i 0).val / 512 * 43 + (i 1).val / 256 < cfg0.N := by rw [hN]; omega
  obtain ⟨a00, a01, a10, a11, a20, a21, a22, a30, a31⟩ := idx_facts ⟨(i 0).val / 512 * 43 + (i 1).val / 256, hlt⟩
  have b0 : win0_3.index ⟨(i 0).val / 512 * 43 + (i 1).val / 256, hlt⟩ (0 : Fin 2) = ((i 0).val / 512 * 43 + (i 1).val / 256) / 43 := a30
  have b1 : win0_3.index ⟨(i 0).val / 512 * 43 + (i 1).val / 256, hlt⟩ (1 : Fin 2) = ((i 0).val / 512 * 43 + (i 1).val / 256) % 43 := a31
  refine ⟨⟨(i 0).val / 512 * 43 + (i 1).val / 256, hlt⟩, flush0_3 _, ?_⟩
  rw [mem_blk]
  intro a
  match a with
  | ⟨0, _⟩ =>
    show win0_3.index ⟨(i 0).val / 512 * 43 + (i 1).val / 256, hlt⟩ (0 : Fin 2) * 512 ≤ (i 0).val
      ∧ (i 0).val < win0_3.index ⟨(i 0).val / 512 * 43 + (i 1).val / 256, hlt⟩ (0 : Fin 2) * 512 + 512
    rw [b0]
    omega
  | ⟨1, _⟩ =>
    show win0_3.index ⟨(i 0).val / 512 * 43 + (i 1).val / 256, hlt⟩ (1 : Fin 2) * 256 ≤ (i 1).val
      ∧ (i 1).val < win0_3.index ⟨(i 0).val / 512 * 43 + (i 1).val / 256, hlt⟩ (1 : Fin 2) * 256 + 256
    rw [b1]
    omega

/-- After the last grid point the result array is the product of the three argument arrays. -/
theorem final (c : Dev nD) :
    (dats m 0 c).arrAt 3 cfg0.N
      = product (m ((c : Thread nD τ).loc main_arg0)) (m ((c : Thread nD τ).loc main_arg1)) (m ((c : Thread nD τ).loc main_arg2)) :=
  (dats m 0 c).arrAt_eq_of_cover 3 (product (V m c main_arg0) (V m c main_arg1) (V m c main_arg2))
    (fun t _ => flushed_eq m c t) cover

/-- The kernel's run, read: the result array ends at the product of the arguments, the arguments unchanged. -/
theorem run : θ_run defs (onTc (τ := τ) (main (F := Ideal))) ⟨m, fun _ => 0, ρ⟩ fun r => ∀ c : Dev nD,
      r.2.mem ((c : Thread nD τ).loc main_v0)
        = product (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Blocks

end
-- ==== Proof.lean ====
/-
  Both programs compute the same quantized matrix product over the extended reals:

      out(i, n) = Σ_k x(i, k) · ((code(n, k) − 8) · scale(k / 128, n) + zero(k / 128, n)),   k = 0 … 4095,

  with the same factors in the same order in every term, so the two results agree entry by entry with no algebraic
  law beyond re-indexing the sum, and the finiteness of the inputs is never used.

  `Dequant` states the product as one function of the three arrays.  `RefProduct` reads the reference's host
  operations (transpose, regrouping into 32 groups of 128, the affine dequantization, the flattening, one matrix
  product) at an index and finds that function.  `TilePayload` reads the kernel body at an index: one grid point
  computes a 512 × 256 tile of the product from 512 rows of activations, 256 rows of codes and 256 columns of the
  scale/zero table.  `Blocks` places the 8 × 43 tiles in the result array and shows they fill it.  The three frame
  claims are the generated frame runs (the reference's from its generated run), and the idealization rewrote
  nothing, so there is nothing to preserve.
-/
import proofs.«119163_j2130303779339_1_alg».proof.Defs
import proofs.«119163_j2130303779339_1_alg».proof.Proof.Gen.Kernel
import proofs.«119163_j2130303779339_1_alg».proof.Proof.Gen.Kernel.Skeleton
import proofs.«119163_j2130303779339_1_alg».proof.Proof.Gen.Kernel.Launch
import proofs.«119163_j2130303779339_1_alg».proof.Proof.Gen.Kernel.Points
import proofs.«119163_j2130303779339_1_alg».proof.Proof.Gen.Kernel.Frame
import proofs.«119163_j2130303779339_1_alg».proof.Proof.Gen.KernelIdeal
import proofs.«119163_j2130303779339_1_alg».proof.Proof.Gen.KernelIdeal.Skeleton
import proofs.«119163_j2130303779339_1_alg».proof.Proof.Gen.KernelIdeal.Launch
import proofs.«119163_j2130303779339_1_alg».proof.Proof.Gen.KernelIdeal.Points
import proofs.«119163_j2130303779339_1_alg».proof.Proof.Gen.KernelIdeal.Frame
import proofs.«119163_j2130303779339_1_alg».proof.Proof.Gen.ReferenceIdeal
import proofs.«119163_j2130303779339_1_alg».proof.Proof.Gen.Pre_finite_inputs
import proofs.«119163_j2130303779339_1_alg».proof.Proof.Gen.KernelIdeal.Value
import proofs.«119163_j2130303779339_1_alg».proof.Proof.Gen.ReferenceIdeal.Run
import proofs.«119163_j2130303779339_1_alg».proof.Proof.Gen.ReferenceIdeal.Read
import proofs.«119163_j2130303779339_1_alg».proof.Proof.Dequant
import proofs.«119163_j2130303779339_1_alg».proof.Proof.RefProduct
import proofs.«119163_j2130303779339_1_alg».proof.Proof.TilePayload
import proofs.«119163_j2130303779339_1_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments, both programs end with the product of the arguments in their
    result array: the kernel tile by tile, the reference by one matrix product against the dequantized weights. -/
theorem algebraic : Cert.algebraic_KernelIdeal_ReferenceIdeal := by
  intro m ρ m' ρ' _ hagree
  refine ⟨fun c => Cert.Dequant.product (M := 4096) (N := 11008)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
